-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8191x1 : Shape := ⟨2, ![8191, 1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8191x1 : S_.BroadcastsInDim S8191x1 (![] : Fin 0 → Fin S8191x1.rank)
  reducesTo_S8191x1_S_d0_1 : S8191x1.ReducesTo [0, 1] S_

variable [Facts]

def fn {F : FTy → Type} [FloatOps F] (main_arg0 : FVec F S8192x8192 .f32) (main_arg1 : FVec F S8191x1 .f32) (main_arg2 : FVec F S8191x1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8191x1 .f32 := Host.absf main_arg1
  let main_cst_0 : FVec F S_ .f32 := constant S_ .f32 0x7F800000#32
  let main_v5 : FVec F S8191x1 .f32 := broadcastInDim S8191x1 ![] bcast_S_S8191x1 main_cst_0
  let main_v6 : IVec S8191x1 1 := cmpf .olt main_v4 main_v5
  let main_c_1 : IVec S_ 1 := constantI S_ 1 1#1
  let main_v7 : IVec S_ 1 := (fun x v => Host.reduce IntOp.andi x v reducesTo_S8191x1_S_d0_1 h_S_) main_v6 main_c_1
  let main_v8 : IVec S_ 1 := andi main_v3 main_v7
  let main_v9 : FVec F S8191x1 .f32 := Host.absf main_arg2
  let main_cst_2 : FVec F S_ .f32 := constant S_ .f32 0x7F800000#32
  let main_v10 : FVec F S8191x1 .f32 := broadcastInDim S8191x1 ![] bcast_S_S8191x1 main_cst_2
  let main_v11 : IVec S8191x1 1 := cmpf .olt main_v9 main_v10
  let main_c_3 : IVec S_ 1 := constantI S_ 1 1#1
  let main_v12 : IVec S_ 1 := (fun x v => Host.reduce IntOp.andi x v reducesTo_S8191x1_S_d0_1 h_S_) main_v11 main_c_3
  let main_v13 : IVec S_ 1 := andi main_v8 main_v12
  main_v13
-- ==== Kernel.lean ====
abbrev S8192x8192 : Shape := ⟨2, ![8192, 8192]⟩
abbrev S8191x1 : Shape := ⟨2, ![8191, 1]⟩
abbrev S_ : Shape := ⟨0, ![]⟩
abbrev S1x1 : Shape := ⟨2, ![1, 1]⟩
abbrev S8192x1 : Shape := ⟨2, ![8192, 1]⟩
abbrev S8192x128 : Shape := ⟨2, ![8192, 128]⟩

abbrev nBuf : Space → Nat
  | .hbm => 10
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8191x1, .f32⟩
  | .hbm, ⟨2, _⟩ => ⟨S8191x1, .f32⟩
  | .hbm, ⟨3, _⟩ => ⟨S_, .f32⟩
  | .hbm, ⟨4, _⟩ => ⟨S1x1, .f32⟩
  | .hbm, ⟨5, _⟩ => ⟨S8192x1, .f32⟩
  | .hbm, ⟨6, _⟩ => ⟨S_, .f32⟩
  | .hbm, ⟨7, _⟩ => ⟨S1x1, .f32⟩
  | .hbm, ⟨8, _⟩ => ⟨S8192x1, .f32⟩
  | .hbm, ⟨9, _⟩ => ⟨S8192x8192, .f32⟩
  | .local _ .vmem, ⟨0, _⟩ => ⟨S8192x128, .f32⟩
  | .local _ .vmem, ⟨1, _⟩ => ⟨S8192x128, .f32⟩
  | .local _ .vmem, ⟨2, _⟩ => ⟨S8192x1, .f32⟩
  | .local _ .vmem, ⟨3, _⟩ => ⟨S8192x1, .f32⟩
  | .local _ .vmem, ⟨4, _⟩ => ⟨S8192x128, .f32⟩
  | .local _ .vmem, ⟨5, _⟩ => ⟨S8192x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x1 : S_.BroadcastsInDim S1x1 (![] : Fin 0 → Fin S1x1.rank)
  concatenates_S1x1_S8191x1_S8192x1_d0 : Shape.Concatenates [S1x1, S8191x1] S8192x1 0
  inb_S8192x128_S8192x128_0_0 : ∀ a, (![0, 0] : Fin 2 → Nat) a + S8192x128.size a ≤ S8192x128.size a
  h_S8192x128 : 0 < S8192x128.numel
  rotates_S8192x128_d0 : S8192x128.Rotates 0 none
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x8192.size a
  hwx0_0 : ∀ i : grid0.Coords, EltTy.bits .f32 = 32 ∨ (Rect.block (s := S8192x8192) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .f32 = 32 ∨ (Rect.block (s := S8192x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x8192.size a
  hwx0_3 : ∀ i : grid0.Coords, EltTy.bits .f32 = 32 ∨ (Rect.block (s := S8192x8192) S8192x128.size (cc0_transform_3 i) (hinb0_3 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8191x1 : Shape := ⟨2, ![8191, 1]⟩
abbrev S8191x8192 : Shape := ⟨2, ![8191, 8192]⟩
abbrev S1x8192 : Shape := ⟨2, ![1, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8191x1, .f32⟩
  | .hbm, ⟨2, _⟩ => ⟨S8191x1, .f32⟩
  | .hbm, ⟨3, _⟩ => ⟨S8191x8192, .f32⟩
  | .hbm, ⟨4, _⟩ => ⟨S8191x8192, .f32⟩
  | .hbm, ⟨5, _⟩ => ⟨S8191x8192, .f32⟩
  | .hbm, ⟨6, _⟩ => ⟨S8191x8192, .f32⟩
  | .hbm, ⟨7, _⟩ => ⟨S8191x8192, .f32⟩
  | .hbm, ⟨8, _⟩ => ⟨S8191x8192, .f32⟩
  | .hbm, ⟨9, _⟩ => ⟨S8191x8192, .f32⟩
  | .hbm, ⟨10, _⟩ => ⟨S1x8192, .f32⟩
  | .hbm, ⟨11, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S8192x8192_S8191x8192_1_0 : S8192x8192.Slices ![1, 0] S8191x8192
  slices_S8192x8192_S8191x8192_0_0 : S8192x8192.Slices ![0, 0] S8191x8192
  bcast_S8191x1_S8191x8192_0_1 : S8191x1.BroadcastsInDim S8191x8192 (![0, 1] : Fin 2 → Fin S8191x8192.rank)
  slices_S8192x8192_S1x8192_0_0 : S8192x8192.Slices ![0, 0] S1x8192
  concatenates_S1x8192_S8191x8192_S8192x8192_d0 : Shape.Concatenates [S1x8192, S8191x8192] S8192x8192 0

variable [Facts₀]

class Facts : Prop extends Facts₀ where

variable [Facts]
-- ==== Proof.LibRowShift.lean ====
/-
  Layout operations of matrices read at an index (row, column), for any extents and any element type.

  * One row stacked on `R` rows (a join of a `[1, C]` and an `[R, C]` array along the row axis into `[N, C]`): row 0 of
    the result is the single row, row `r' + 1` is row `r'` of the lower piece.
  * A rotation of the rows by ONE place (row `r` of the result is row `r - 1` of the operand, and row 0 is the LAST row,
    which comes around the end).
  * A column `[N, 1]` broadcast along the lanes to `[N, C]`: entry (r, c) is the column's entry r.
  * A scalar broadcast to any shape: every entry is the scalar.
-/
import Idealize.ShloMosaic.Lib.Pipeline.Value
import Idealize.ShloMosaic.Lib.ValueIdx
import Idealize.ShloMosaic.Lib.KernelVsHost

namespace Cert.RowShift

open Idealize.ShloMosaic Idealize.ShloMosaic.ValueIdx

variable {α : Type}

/-- A single row `top` stacked on the rows `rest`, read in row 0: the entry of `top` in the same column. -/
theorem stack_head_apply {R N C : Nat} (top : (⟨2, ![1, C]⟩ : Shape).Idx → α) (rest : (⟨2, ![R, C]⟩ : Shape).Idx → α)
    (h : Shape.Concatenates [(⟨2, ![1, C]⟩ : Shape), (⟨2, ![R, C]⟩ : Shape)] (⟨2, ![N, C]⟩ : Shape) (0 : Fin 2))
    (r : Fin N) (c : Fin C) (hr : r.val = 0) :
    concatenate (⟨2, ![N, C]⟩ : Shape) (0 : Fin 2) [⟨(⟨2, ![1, C]⟩ : Shape), top⟩, ⟨(⟨2, ![R, C]⟩ : Shape), rest⟩] h (ix2 r c)
      = top (ix2 (0 : Fin 1) c) :=
  concatenate_pair_apply_left (0 : Fin 2) top rest h (ix2 r c) rfl (ix2 (0 : Fin 1) c) (fun b => match b with
    | ⟨0, _⟩ => hr.symm
    | ⟨1, _⟩ => rfl)

/-- A single row stacked on the rows `rest`, read in a row `r = r' + 1` below the first: row `r'` of `rest`, same column. -/
theorem stack_tail_apply {R N C : Nat} (top : (⟨2, ![1, C]⟩ : Shape).Idx → α) (rest : (⟨2, ![R, C]⟩ : Shape).Idx → α)
    (h : Shape.Concatenates [(⟨2, ![1, C]⟩ : Shape), (⟨2, ![R, C]⟩ : Shape)] (⟨2, ![N, C]⟩ : Shape) (0 : Fin 2))
    (r : Fin N) (c : Fin C) (r' : Fin R) (hr : r'.val + 1 = r.val) :
    concatenate (⟨2, ![N, C]⟩ : Shape) (0 : Fin 2) [⟨(⟨2, ![1, C]⟩ : Shape), top⟩, ⟨(⟨2, ![R, C]⟩ : Shape), rest⟩] h (ix2 r c)
      = rest (ix2 r' c) :=
  concatenate_pair_apply_right (0 : Fin 2) top rest h (ix2 r c) rfl rfl (ix2 r' c)
    (fun b hb => match b, hb with
      | ⟨0, _⟩, hb => absurd rfl hb
      | ⟨1, _⟩, _ => rfl)
    hr

/-- The rows rotated by one place: row `r` of the result is the operand's row `(r + N - 1) mod N` — the row above, and
    for row 0 the last row. -/
theorem rotate_rows_one_apply {N C : Nat} (hN : 1 < N) (sb : BitVec 32) (hsb : sb.toNat = 1)
    (x : (⟨2, ![N, C]⟩ : Shape).Idx → α) (h : (⟨2, ![N, C]⟩ : Shape).Rotates (0 : Fin 2) none)
    (r r' : Fin N) (c : Fin C) (hr : r'.val = (r.val + N - 1) % N) :
    dynamicRotate (0 : Fin 2) sb none x h (ix2 r c) = x (ix2 r' c) :=
  dynamicRotate_apply (0 : Fin 2) sb x h (ix2 r c) (ix2 r' c) (fun b => match b with
    | ⟨0, hlt⟩ => by
        have e : (⟨0, hlt⟩ : Fin (⟨2, ![N, C]⟩ : Shape).rank) = (0 : Fin 2) := rfl
        rw [if_pos e]
        show r'.val = (r.val + N - sb.toNat % N) % N
        rw [hsb, Nat.mod_eq_of_lt hN]; exact hr
    | ⟨1, hlt⟩ => by
        have e : ¬ (⟨1, hlt⟩ : Fin (⟨2, ![N, C]⟩ : Shape).rank) = (0 : Fin 2) :=
          fun he => absurd (show (1 : Nat) = 0 from congrArg Fin.val he) (by decide)
        rw [if_neg e])

/-- A column broadcast along the lanes: entry (r, c) is the column's entry r. -/
theorem column_broadcast_apply {N C : Nat} (x : (⟨2, ![N, 1]⟩ : Shape).Idx → α)
    (h : (⟨2, ![N, 1]⟩ : Shape).Broadcasts (⟨2, ![N, C]⟩ : Shape)) (r : Fin N) (c : Fin C) :
    broadcastTo (⟨2, ![N, C]⟩ : Shape) x h (ix2 r c) = x (ix2 r (0 : Fin 1)) :=
  broadcastTo_apply x h (ix2 r c) (ix2 r (0 : Fin 1)) (fun a => match a with
    | ⟨0, _⟩ => by
        show r.val = if N = 1 then 0 else r.val
        have := r.isLt
        split <;> omega
    | ⟨1, _⟩ => by
        show 0 = if (1 : Nat) = 1 then 0 else c.val
        rw [if_pos rfl])

/-- A scalar broadcast to any shape: every entry is the scalar. -/
theorem scalar_broadcast_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

end Cert.RowShift
-- ==== Proof.Spec.lean ====
/-
  The function both programs compute, over the extended reals.

  For an 8192 x 8192 matrix `X` and two columns `W`, `B` of 8191 entries, the result `Y` has
    Y(0, c) = X(0, c)
    Y(r, c) = X(r, c) + X(r-1, c) * W(r-1) + B(r-1)        for r > 0,
  the sum associated to the left. Every row adds to itself the row above, scaled and shifted by that row's own
  coefficients; the first row has no row above and is kept.

  The kernel reaches the first row another way: it rotates the rows by one place, so that row 0 meets the LAST row, and
  it gives row 0 the coefficients (0, 0). The last row's contribution is then `x * 0 + 0`, which vanishes for every
  extended real `x` — including the infinities, since `x * 0 = 0` holds on all of the extended reals — so no
  finiteness of the inputs is needed.
-/
import Idealize.ShloMosaic.PureOps.Ideal
import Idealize.ShloMosaic.Lib.ValueIdx

noncomputable section

namespace Cert.ShiftedAffine

open Idealize.ShloMosaic Idealize.ShloMosaic.ValueIdx

/-- The row above row `r > 0`, as a row of the matrix. -/
def above (r : Fin 8192) (h : r.val ≠ 0) : Fin 8192 := ⟨r.val - 1, by have := r.isLt; omega⟩

/-- The row above row `r > 0`, as an entry of the coefficient columns (which have one entry fewer than the matrix has rows). -/
def coeff (r : Fin 8192) (h : r.val ≠ 0) : Fin 8191 := ⟨r.val - 1, by have := r.isLt; omega⟩

/-- The result at row `r`, column `c`. -/
def specAt (X : (⟨2, ![8192, 8192]⟩ : Shape).Idx → EReal) (W B : (⟨2, ![8191, 1]⟩ : Shape).Idx → EReal)
    (r c : Fin 8192) : EReal :=
  if h : r.val = 0 then X (ix2 r c)
  else X (ix2 r c) + X (ix2 (above r h) c) * W (ix2 (coeff r h) (0 : Fin 1)) + B (ix2 (coeff r h) (0 : Fin 1))

/-- The result as one array. -/
def spec (X : (⟨2, ![8192, 8192]⟩ : Shape).Idx → EReal) (W B : (⟨2, ![8191, 1]⟩ : Shape).Idx → EReal) :
    (⟨2, ![8192, 8192]⟩ : Shape).Idx → EReal :=
  fun j => specAt X W B (j 0) (j 1)

theorem spec_apply (X : (⟨2, ![8192, 8192]⟩ : Shape).Idx → EReal) (W B : (⟨2, ![8191, 1]⟩ : Shape).Idx → EReal)
    (r c : Fin 8192) : spec X W B (ix2 r c) = specAt X W B r c := rfl

theorem specAt_zero (X : (⟨2, ![8192, 8192]⟩ : Shape).Idx → EReal) (W B : (⟨2, ![8191, 1]⟩ : Shape).Idx → EReal)
    (r c : Fin 8192) (h : r.val = 0) : specAt X W B r c = X (ix2 r c) := by
  unfold specAt; rw [dif_pos h]

theorem specAt_pos (X : (⟨2, ![8192, 8192]⟩ : Shape).Idx → EReal) (W B : (⟨2, ![8191, 1]⟩ : Shape).Idx → EReal)
    (r c : Fin 8192) (h : r.val ≠ 0) :
    specAt X W B r c
      = X (ix2 r c) + X (ix2 (above r h) c) * W (ix2 (coeff r h) (0 : Fin 1)) + B (ix2 (coeff r h) (0 : Fin 1)) := by
  unfold specAt; rw [dif_neg h]

/-- With coefficients (0, 0) a row takes nothing from the row it is paired with, whatever that row holds. -/
theorem zero_coeffs (x y : EReal) : x + y * 0 + 0 = x := by
  rw [mul_zero, add_zero, add_zero]

end Cert.ShiftedAffine

end
-- ==== Proof.KernelBlock.lean ====
/-
  What the kernel's body computes on one block, read at an index.

  A block is all 8192 rows of 128 consecutive columns of the matrix, together with the two coefficient columns, each
  lengthened to 8192 entries by one zero in front. The body adds to the block its own rows rotated by one place, scaled row
  by row by the first column, and then the second column. Row r > 0 so meets row r - 1 and the coefficients W(r-1), B(r-1);
  row 0 meets the last row — which came around the end — and the coefficients (0, 0), and keeps its own value.
-/
import proofs.«105435_j309237646072_2_alg».proof.Proof.Gen.KernelIdeal.Skeleton
import proofs.«105435_j309237646072_2_alg».proof.Proof.LibRowShift
import proofs.«105435_j309237646072_2_alg».proof.Proof.Spec
import Idealize.ShloMosaic.PureOps.Ideal.Laws

noncomputable section

namespace Cert.ShiftedAffine.Kernel

open Idealize.ShloMosaic Idealize.ShloMosaic.ValueIdx Cert.KernelIdeal Cert.KernelIdeal.Gen Cert.RowShift Cert.ShiftedAffine

/-- The row that the rotation pairs with row `r`: the row above, and for row 0 the last row. -/
def paired (r : Fin 8192) : Fin 8192 := ⟨(r.val + 8192 - 1) % 8192, Nat.mod_lt _ (by decide)⟩

theorem paired_of_pos (r : Fin 8192) (h : r.val ≠ 0) : paired r = above r h :=
  Fin.ext (by show (r.val + 8192 - 1) % 8192 = r.val - 1; have := r.isLt; omega)

/-- The body's stored value at row `r`, lane `q` of a block: the block's entry, plus the paired row's entry in the same
    lane times the first column's entry `r`, plus the second column's entry `r`. -/
theorem payload_apply (x0 : (⟨2, ![8192, 128]⟩ : Shape).Idx → EReal) (x1 x2 : (⟨2, ![8192, 1]⟩ : Shape).Idx → EReal)
    (r : Fin 8192) (q : Fin 128) :
    k0_pay1 (F := Ideal) x0 x1 x2 (ix2 r q)
      = x0 (ix2 r q) + x0 (ix2 (paired r) q) * x1 (ix2 r (0 : Fin 1)) + x2 (ix2 r (0 : Fin 1)) := by
  have e1 : dynamicRotate (0 : Fin 2) 1#32 none x0 Facts₀.rotates_S8192x128_d0 (ix2 r q) = x0 (ix2 (paired r) q) :=
    rotate_rows_one_apply (by decide) 1#32 rfl x0 Facts₀.rotates_S8192x128_d0 r (paired r) q rfl
  have e2 : broadcastTo S8192x128 (shapeCast S8192x1 x1 Facts₀.shapeCasts_S8192x1_S8192x1) Facts₀.broadcasts_S8192x1_S8192x128 (ix2 r q)
      = x1 (ix2 r (0 : Fin 1)) :=
    (column_broadcast_apply _ Facts₀.broadcasts_S8192x1_S8192x128 r q).trans
      (congrFun (shapeCast_self x1 Facts₀.shapeCasts_S8192x1_S8192x1) _)
  have e3 : broadcastTo S8192x128 (shapeCast S8192x1 x2 Facts₀.shapeCasts_S8192x1_S8192x1) Facts₀.broadcasts_S8192x1_S8192x128 (ix2 r q)
      = x2 (ix2 r (0 : Fin 1)) :=
    (column_broadcast_apply _ Facts₀.broadcasts_S8192x1_S8192x128 r q).trans
      (congrFun (shapeCast_self x2 Facts₀.shapeCasts_S8192x1_S8192x1) _)
  unfold k0_pay1
  show x0 (ix2 r q)
      + dynamicRotate (0 : Fin 2) 1#32 none x0 Facts₀.rotates_S8192x128_d0 (ix2 r q)
        * broadcastTo S8192x128 (shapeCast S8192x1 x1 Facts₀.shapeCasts_S8192x1_S8192x1) Facts₀.broadcasts_S8192x1_S8192x128 (ix2 r q)
      + broadcastTo S8192x128 (shapeCast S8192x1 x2 Facts₀.shapeCasts_S8192x1_S8192x1) Facts₀.broadcasts_S8192x1_S8192x128 (ix2 r q) = _
  rw [e1, e2, e3]

/-- A column of 8191 entries with one zero put in front, read at entry `r`: zero at the front, the column's entry
    `r - 1` after it. -/
theorem padded_apply (W : (⟨2, ![8191, 1]⟩ : Shape).Idx → EReal)
    (hb : S_.BroadcastsInDim S1x1 (![] : Fin 0 → Fin S1x1.rank))
    (hc : Shape.Concatenates [S1x1, S8191x1] S8192x1 0) (r : Fin 8192) :
    concatenate S8192x1 0 [⟨S1x1, broadcastInDim S1x1 ![] hb (constant (F := Ideal) S_ .f32 0x00000000#32)⟩, ⟨S8191x1, W⟩] hc
        (ix2 r (0 : Fin 1))
      = if h : r.val = 0 then 0 else W (ix2 (coeff r h) (0 : Fin 1)) := by
  by_cases h : r.val = 0
  · rw [dif_pos h]
    refine (stack_head_apply (broadcastInDim S1x1 ![] hb (constant (F := Ideal) S_ .f32 0x00000000#32)) W hc r (0 : Fin 1) h).trans ?_
    refine (scalar_broadcast_apply _ hb _ _).trans ?_
    exact Ideal.ofBits_zero_f32
  · rw [dif_neg h]
    exact stack_tail_apply (broadcastInDim S1x1 ![] hb (constant (F := Ideal) S_ .f32 0x00000000#32)) W hc r (0 : Fin 1) (coeff r h)
      (by show r.val - 1 + 1 = r.val; omega)

/-- THE BLOCK'S VALUE. If a block `x0` holds columns `128 k .. 128 k + 127` of the matrix `X`, and `x1`, `x2` are the columns
    `W`, `B` with a zero in front, the body's stored value at (r, q) is the specification at row `r`, column `128 k + q`. -/
theorem block_value (X : (⟨2, ![8192, 8192]⟩ : Shape).Idx → EReal) (W B : (⟨2, ![8191, 1]⟩ : Shape).Idx → EReal)
    (x0 : (⟨2, ![8192, 128]⟩ : Shape).Idx → EReal) (x1 x2 : (⟨2, ![8192, 1]⟩ : Shape).Idx → EReal)
    (k : Nat) (hk : k < 64)
    (h0 : ∀ (r : Fin 8192) (q : Fin 128),
      x0 (ix2 r q) = X (ix2 r (⟨k * 128 + q.val, by have := q.isLt; omega⟩ : Fin 8192)))
    (h1 : ∀ r : Fin 8192, x1 (ix2 r (0 : Fin 1)) = if h : r.val = 0 then 0 else W (ix2 (coeff r h) (0 : Fin 1)))
    (h2 : ∀ r : Fin 8192, x2 (ix2 r (0 : Fin 1)) = if h : r.val = 0 then 0 else B (ix2 (coeff r h) (0 : Fin 1)))
    (r : Fin 8192) (q : Fin 128) :
    k0_pay1 (F := Ideal) x0 x1 x2 (ix2 r q)
      = specAt X W B r (⟨k * 128 + q.val, by have := q.isLt; omega⟩ : Fin 8192) := by
  rw [payload_apply, h0, h0, h1, h2]
  by_cases h : r.val = 0
  · rw [dif_pos h, dif_pos h, specAt_zero X W B r _ h]
    exact zero_coeffs _ _
  · rw [dif_neg h, dif_neg h, specAt_pos X W B r _ h, paired_of_pos r h]

/-- The same, at any index `y` of the block and the index `i` of the matrix it sits at. -/
theorem block_value_at (X : (⟨2, ![8192, 8192]⟩ : Shape).Idx → EReal) (W B : (⟨2, ![8191, 1]⟩ : Shape).Idx → EReal)
    (x0 : (⟨2, ![8192, 128]⟩ : Shape).Idx → EReal) (x1 x2 : (⟨2, ![8192, 1]⟩ : Shape).Idx → EReal)
    (k : Nat) (hk : k < 64)
    (h0 : ∀ (r : Fin 8192) (q : Fin 128),
      x0 (ix2 r q) = X (ix2 r (⟨k * 128 + q.val, by have := q.isLt; omega⟩ : Fin 8192)))
    (h1 : ∀ r : Fin 8192, x1 (ix2 r (0 : Fin 1)) = if h : r.val = 0 then 0 else W (ix2 (coeff r h) (0 : Fin 1)))
    (h2 : ∀ r : Fin 8192, x2 (ix2 r (0 : Fin 1)) = if h : r.val = 0 then 0 else B (ix2 (coeff r h) (0 : Fin 1)))
    (y : (⟨2, ![8192, 128]⟩ : Shape).Idx) (i : (⟨2, ![8192, 8192]⟩ : Shape).Idx)
    (hi0 : (i 0).val = (y 0).val) (hi1 : (i 1).val = k * 128 + (y 1).val) :
    k0_pay1 (F := Ideal) x0 x1 x2 y = spec X W B i := by
  obtain ⟨r, q, rfl⟩ : ∃ (r : Fin 8192) (q : Fin 128), y = ix2 r q := ⟨y 0, y 1, eq_ix2 y⟩
  have hb : k * 128 + q.val < 8192 := by have := q.isLt; omega
  obtain ⟨r', c', rfl⟩ : ∃ (r' : Fin 8192) (c' : Fin 8192), i = ix2 r' c' := ⟨i 0, i 1, eq_ix2 i⟩
  have er : r' = r := Fin.ext hi0
  have ec : c' = (⟨k * 128 + q.val, hb⟩ : Fin 8192) := Fin.ext hi1
  rw [er, ec, spec_apply]
  exact block_value X W B x0 x1 x2 k hk h0 h1 h2 r q

end Cert.ShiftedAffine.Kernel

end
-- ==== Proof.KernelValue.lean ====
/-
  From the blocks to the whole array: after the run the kernel's result array is the specification of the argument arrays.

  The grid has 64 points; point t works on columns 128 t .. 128 t + 127, all rows. Its matrix block is that strip of the
  argument matrix; its two coefficient blocks are, at every point, the whole lengthened columns — the columns the program
  itself builds before the call by putting one zero in front of each argument column. What the point writes back is therefore
  the strip of the specification (the block's value, one module up), and the 64 strips tile the array.
-/
import proofs.«105435_j309237646072_2_alg».proof.Proof.Gen.KernelIdeal.Value
import proofs.«105435_j309237646072_2_alg».proof.Proof.KernelBlock
import Idealize.ShloMosaic.Lib.StableHlo.Run

noncomputable section

namespace Cert.ShiftedAffine.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.ShiftedAffine Cert.ShiftedAffine.Kernel

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 64 points: every window's block starts at row 0; the matrix strip read is the
    strip written; the coefficient columns are always their one whole block. -/
theorem index_facts : ∀ t : Fin cfg0.N,
    win0_0.index t (0 : Fin 2) = 0 ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) < 64 :=
  (by decide +kernel : ∀ t : Fin grid0.N, _)

/-- Every strip is some point's. -/
theorem index_onto : ∀ q : Fin 64, ∃ t : Fin cfg0.N, win0_3.index t = ![0, q.val] :=
  (by decide +kernel : ∀ q : Fin 64, ∃ t : Fin grid0.N, win0_3.index t = ![0, q.val])

/-- The first coefficient column as the call finds it: the argument column with a zero in front. -/
theorem weights_at_entry (c : Dev nD) :
    (V m c main_v1 : S8192x1.Idx → EReal)
      = concatenate S8192x1 0 [⟨S1x1, broadcastInDim S1x1 ![] Facts₀.bcast_S_S1x1 (constant (F := Ideal) S_ .f32 0x00000000#32)⟩,
          ⟨S8191x1, m ((c : Thread nD τ).loc main_arg1)⟩] Facts₀.concatenates_S1x1_S8191x1_S8192x1_d0 := by
  dsimp only [Gen.V, Gen.hostOps0]; after_results

/-- The second coefficient column as the call finds it: the argument column with a zero in front. -/
theorem bias_at_entry (c : Dev nD) :
    (V m c main_v3 : S8192x1.Idx → EReal)
      = concatenate S8192x1 0 [⟨S1x1, broadcastInDim S1x1 ![] Facts₀.bcast_S_S1x1 (constant (F := Ideal) S_ .f32 0x00000000#32)⟩,
          ⟨S8191x1, m ((c : Thread nD τ).loc main_arg2)⟩] Facts₀.concatenates_S1x1_S8191x1_S8192x1_d0 := by
  dsimp only [Gen.V, Gen.hostOps0]; after_results

/-- WHAT POINT `t` WRITES BACK is strip `t` of the specification of the argument arrays. -/
theorem flushed_eq_spec (c : Dev nD) (t : Fin cfg0.N) :
    (dats m 0 c).flushed 3 t = ((cfg0.win 3).blk t).view.read (Elt Ideal)
      (spec (m ((c : Thread nD τ).loc main_arg0)) (m ((c : Thread nD τ).loc main_arg1)) (m ((c : Thread nD τ).loc main_arg2))) := by
  rw [Cert.KernelIdeal.Value.flushed3]
  unfold out0_3
  rw [View.canon_unit_zero origin]
  simp only [View.ld_unit_zero (S := S8192x128) origin, View.ld_unit_zero (S := S8192x1) origin]
  obtain ⟨a0, a1, b0, b1, c0, c1, d0, d1⟩ := index_facts t
  funext y
  show k0_pay1 (F := Ideal) (iblk m c 0 t) (iblk m c 1 t) (iblk m c 2 t) y
    = spec (m ((c : Thread nD τ).loc main_arg0)) (m ((c : Thread nD τ).loc main_arg1)) (m ((c : Thread nD τ).loc main_arg2))
        (((cfg0.win 3).blk t).view.emb y)
  refine block_value_at (m ((c : Thread nD τ).loc main_arg0)) (m ((c : Thread nD τ).loc main_arg1)) (m ((c : Thread nD τ).loc main_arg2))
    (iblk m c 0 t) (iblk m c 1 t) (iblk m c 2 t) (win0_3.index t (1 : Fin 2)) d1 ?_ ?_ ?_ y (((cfg0.win 3).blk t).view.emb y) ?_ ?_
  · -- the matrix block is the strip of the argument matrix
    intro r q
    show V m c main_arg0 (((cfg0.win 0).blk t).view.emb (ix2 r q)) = _
    rw [V_main_arg0]
    refine congrArg _ (funext fun a => Fin.ext ?_)
    match a with
    | ⟨0, _⟩ => show win0_0.index t (0 : Fin 2) * 8192 + 1 * r.val = r.val; omega
    | ⟨1, _⟩ => show win0_0.index t (1 : Fin 2) * 128 + 1 * q.val = win0_3.index t (1 : Fin 2) * 128 + q.val; omega
  · -- the first coefficient block is the whole lengthened column
    intro r
    show V m c main_v1 (((cfg0.win 1).blk t).view.emb (ix2 r (0 : Fin 1))) = _
    have e : ((cfg0.win 1).blk t).view.emb (ix2 r (0 : Fin 1)) = ix2 r (0 : Fin 1) := funext fun a => Fin.ext (by
      match a with
      | ⟨0, _⟩ => show win0_1.index t (0 : Fin 2) * 8192 + 1 * r.val = r.val; omega
      | ⟨1, _⟩ => show win0_1.index t (1 : Fin 2) * 1 + 1 * 0 = 0; omega)
    rw [e, weights_at_entry]
    exact padded_apply _ _ _ r
  · -- and so is the second
    intro r
    show V m c main_v3 (((cfg0.win 2).blk t).view.emb (ix2 r (0 : Fin 1))) = _
    have e : ((cfg0.win 2).blk t).view.emb (ix2 r (0 : Fin 1)) = ix2 r (0 : Fin 1) := funext fun a => Fin.ext (by
      match a with
      | ⟨0, _⟩ => show win0_2.index t (0 : Fin 2) * 8192 + 1 * r.val = r.val; omega
      | ⟨1, _⟩ => show win0_2.index t (1 : Fin 2) * 1 + 1 * 0 = 0; omega)
    rw [e, bias_at_entry]
    exact padded_apply _ _ _ r
  · show win0_3.index t (0 : Fin 2) * 8192 + 1 * (y 0).val = (y 0).val; omega
  · show win0_3.index t (1 : Fin 2) * 128 + 1 * (y 1).val = win0_3.index t (1 : Fin 2) * 128 + (y 1).val; omega

/-- An index of the array is in point `t`'s strip iff each coordinate is in the strip's range on its axis. -/
theorem mem_strip (t : Fin cfg0.N) (i : S8192x8192.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v4).slice (win0_3.rect t)).set ↔ _
  rw [View.set_slice_whole, Rect.mem_set_unit]
  exact Iff.rfl

/-- The 64 strips cover the array: column `j` lies in strip `j / 128`. -/
theorem strips_cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := index_onto ⟨(i 1).val / 128, by omega⟩
  have q0 : win0_3.index t (0 : Fin 2) = 0 := congrFun ht 0
  have q1 : win0_3.index t (1 : Fin 2) = (i 1).val / 128 := congrFun ht 1
  refine ⟨t, flush0_3 t, ?_⟩
  rw [mem_strip]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- THE ARRAY after the run is the specification of the argument arrays. -/
theorem final_eq_spec (c : Dev nD) :
    (dats m 0 c).arrAt 3 cfg0.N
      = spec (m ((c : Thread nD τ).loc main_arg0)) (m ((c : Thread nD τ).loc main_arg1)) (m ((c : Thread nD τ).loc main_arg2)) :=
  (dats m 0 c).arrAt_eq_of_cover 3 _ (fun t _ => flushed_eq_spec m c t) strips_cover

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v4)
        = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq_spec m c), (h c).2⟩)
    (Cert.KernelIdeal.Value.run_blocks m ρ)

end Cert.ShiftedAffine.KernelRun

end
-- ==== Proof.RefIsSpec.lean ====
/-
  The reference computes the specification.

  The reference cuts the matrix into its rows 1..8191 and its rows 0..8190, forms
  `rows(1..) + rows(..8190) * W + B` with the two columns spread along the lanes, and puts row 0 of the matrix back on top.
  Read at (r, c): in row 0 the join takes the single top row, which is the matrix's row 0; in a row r > 0 it takes row r - 1
  of the lower piece, whose entry is X(r, c) + X(r-1, c) * W(r-1) + B(r-1).
-/
import proofs.«105435_j309237646072_2_alg».proof.Proof.Gen.ReferenceIdeal.Read
import proofs.«105435_j309237646072_2_alg».proof.Proof.LibRowShift
import proofs.«105435_j309237646072_2_alg».proof.Proof.Spec

noncomputable section

namespace Cert.ShiftedAffine.Ref

open Idealize.ShloMosaic Idealize.ShloMosaic.ValueIdx Cert.ReferenceIdeal Cert.ReferenceIdeal.Read Cert.RowShift Cert.ShiftedAffine

/-- The reference's last stage, as a function of the three argument arrays, is the specification. -/
theorem reference_eq_spec (X : (⟨2, ![8192, 8192]⟩ : Shape).Idx → EReal) (W B : (⟨2, ![8191, 1]⟩ : Shape).Idx → EReal) :
    val_main_v8 (F := Ideal) X W B = spec X W B := by
  funext j
  obtain ⟨r, c, rfl⟩ : ∃ (r : Fin 8192) (c : Fin 8192), j = ix2 r c := ⟨j 0, j 1, eq_ix2 j⟩
  rw [spec_apply]
  unfold val_main_v8
  by_cases hr : r.val = 0
  · -- row 0: the top piece, the matrix's own row 0
    rw [specAt_zero X W B r c hr]
    refine (stack_head_apply (val_main_v7 (F := Ideal) X) (val_main_v6 (F := Ideal) X W B) _ r c hr).trans ?_
    rw [val_main_v7_apply]
    refine congrArg X (funext fun a => ?_)
    match a with
    | ⟨0, _⟩ => exact Fin.ext hr.symm
    | ⟨1, _⟩ => rfl
  · -- a row below: row r - 1 of the lower piece
    rw [specAt_pos X W B r c hr]
    have hlt : r.val < 8192 := r.isLt
    refine (stack_tail_apply (val_main_v7 (F := Ideal) X) (val_main_v6 (F := Ideal) X W B) _ r c (coeff r hr)
      (by show r.val - 1 + 1 = r.val; omega)).trans ?_
    rw [val_main_v6_apply, val_main_v4_apply, val_main_v0_apply, val_main_v3_apply, val_main_v1_apply,
      val_main_v2_apply, val_main_v5_apply]
    have e0 : idx_main_v0 (ix2 (coeff r hr) c) = ix2 r c := funext fun a => match a with
      | ⟨0, _⟩ => Fin.ext (by show 1 + (r.val - 1) = r.val; omega)
      | ⟨1, _⟩ => rfl
    have e1 : idx_main_v1 (ix2 (coeff r hr) c) = ix2 (above r hr) c := funext fun a => match a with
      | ⟨0, _⟩ => rfl
      | ⟨1, _⟩ => rfl
    have e2 : idx_main_v2 (ix2 (coeff r hr) c) = ix2 (coeff r hr) (0 : Fin 1) := funext fun a => match a with
      | ⟨0, _⟩ => rfl
      | ⟨1, _⟩ => rfl
    have e5 : idx_main_v5 (ix2 (coeff r hr) c) = ix2 (coeff r hr) (0 : Fin 1) := funext fun a => match a with
      | ⟨0, _⟩ => rfl
      | ⟨1, _⟩ => rfl
    rw [e0, e1, e2, e5]
    rfl

end Cert.ShiftedAffine.Ref

end
-- ==== Proof.lean ====
/-
  A row-shifted affine update of an 8192 x 8192 matrix, kernel against reference, over the extended reals.

  Both programs compute, for a matrix X and two columns W, B of 8191 coefficients,
      Y(0, c) = X(0, c),        Y(r, c) = X(r, c) + X(r-1, c) * W(r-1) + B(r-1)   (r > 0),
  the sum associated to the left (Proof/Spec.lean).

  The reference does it with slices: rows 1.. plus rows ..8190 times W plus B, and row 0 of X put back on top
  (Proof/RefIsSpec.lean reads that join row by row).

  The kernel works on strips of 128 columns, all rows at once. It rotates a strip's rows by one place, so that row r meets
  row r - 1 and row 0 meets the last row, and it uses the coefficient columns lengthened by a zero in front, so that row 0's
  coefficients are (0, 0); then x + x' * 0 + 0 = x whatever the last row x' holds — on the extended reals x' * 0 = 0 also at
  the infinities, so the finiteness of the inputs is not used (Proof/KernelBlock.lean). The 64 strips tile the array
  (Proof/KernelValue.lean).

  The three frames are the generated runs; the idealization rewrote nothing, so `preserves` is `True`.
-/
import proofs.«105435_j309237646072_2_alg».proof.Defs
import proofs.«105435_j309237646072_2_alg».proof.Proof.Gen.Kernel
import proofs.«105435_j309237646072_2_alg».proof.Proof.Gen.Kernel.Skeleton
import proofs.«105435_j309237646072_2_alg».proof.Proof.Gen.Kernel.Launch
import proofs.«105435_j309237646072_2_alg».proof.Proof.Gen.Kernel.Points
import proofs.«105435_j309237646072_2_alg».proof.Proof.Gen.Kernel.Frame
import proofs.«105435_j309237646072_2_alg».proof.Proof.Gen.KernelIdeal
import proofs.«105435_j309237646072_2_alg».proof.Proof.Gen.KernelIdeal.Skeleton
import proofs.«105435_j309237646072_2_alg».proof.Proof.Gen.KernelIdeal.Launch
import proofs.«105435_j309237646072_2_alg».proof.Proof.Gen.KernelIdeal.Points
import proofs.«105435_j309237646072_2_alg».proof.Proof.Gen.KernelIdeal.Frame
import proofs.«105435_j309237646072_2_alg».proof.Proof.Gen.ReferenceIdeal
import proofs.«105435_j309237646072_2_alg».proof.Proof.Gen.Pre_finite_inputs
import proofs.«105435_j309237646072_2_alg».proof.Proof.Gen.KernelIdeal.Value
import proofs.«105435_j309237646072_2_alg».proof.Proof.Gen.ReferenceIdeal.Run
import proofs.«105435_j309237646072_2_alg».proof.Proof.Gen.ReferenceIdeal.Read
import proofs.«105435_j309237646072_2_alg».proof.Proof.KernelValue
import proofs.«105435_j309237646072_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the specification of the (agreeing) argument arrays. -/
theorem algebraic : Cert.algebraic_KernelIdeal_ReferenceIdeal := by
  intro m ρ m' ρ' _ hagree
  refine ⟨_, Cert.ShiftedAffine.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ShiftedAffine.Ref.reference_eq_spec _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
